-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S128 .f32) (main_arg1 : FVec F S1000000x64 .f32) (main_arg2 : FVec F S1000000x64 .f32) (main_arg3 : FVec F S192x64 .f32) (main_arg4 : FVec F S64 .f32) (main_arg5 : FVec F S64x64 .f32) (main_arg6 : FVec F S64 .f32) : IVec S_ 1 :=
  let main_v0 : FVec F S128 .f32 := Host.absf main_arg0
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_v13 main_v16
-- ==== Kernel.lean ====
abbrev S128 : Shape := ⟨1, ![128]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S1x128 : Shape := ⟨2, ![1, 128]⟩
abbrev S1x64 : Shape := ⟨2, ![1, 64]⟩
abbrev S_ : Shape := ⟨0, ![]⟩
abbrev S64x128 : Shape := ⟨2, ![64, 128]⟩
abbrev S128x128 : Shape := ⟨2, ![128, 128]⟩
abbrev S500000x128 : Shape := ⟨2, ![500000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 39
  | .vmem => 12
  | .smem => 0
  | _ => 0

abbrev bufTy : (tb : Table) → Fin (tcTables nBuf tb) → BufTy
  | .hbm, ⟨0, _⟩ => ⟨S128, .f32⟩
  | .hbm, ⟨1, _⟩ => ⟨S1000000x64, .f32⟩
  | .hbm, ⟨2, _⟩ => ⟨S1000000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64x64, .f32⟩
  | .hbm, ⟨9, _⟩ => ⟨S1x128, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64x64, .f32⟩
  | .hbm, ⟨15, _⟩ => ⟨S64x128, .f32⟩
  | .hbm, ⟨16, _⟩ => ⟨S64x128, .f32⟩
  | .hbm, ⟨17, _⟩ => ⟨S128x128, .f32⟩
  | .hbm, ⟨18, _⟩ => ⟨S_, .f32⟩
  | .hbm, ⟨19, _⟩ => ⟨S64x64, .f32⟩
  | .hbm, ⟨20, _⟩ => ⟨S64x128, .f32⟩
  | .hbm, ⟨21, _⟩ => ⟨S64x128, .f32⟩
  | .hbm, ⟨22, _⟩ => ⟨S128x128, .f32⟩
  | .hbm, ⟨23, _⟩ => ⟨S128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S1x64, .f32⟩
  | .hbm, ⟨29, _⟩ => ⟨S_, .f32⟩
  | .hbm, ⟨30, _⟩ => ⟨S1x64, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S500000x128, .f32⟩
  | .hbm, ⟨36, _⟩ => ⟨S500000x128, .f32⟩
  | .hbm, ⟨37, _⟩ => ⟨S500000x128, .f32⟩
  | .hbm, ⟨38, _⟩ => ⟨S1000000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S192x64_S128x64_0_0 : S192x64.Slices ![0, 0] S128x64
  slices_S192x64_S64x64_128_0 : S192x64.Slices ![128, 0] S64x64
  shapeCasts_S128_S1x128 : S128.ShapeCasts S1x128
  shapeCasts_S1x64_S64 : S1x64.ShapeCasts S64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  bcast_S128_S1x128_1 : S128.BroadcastsInDim S1x128 (![1] : Fin 1 → Fin S1x128.rank)
  bcast_S_S1x64 : S_.BroadcastsInDim S1x64 (![] : Fin 0 → Fin S1x64.rank)
  concatenates_S1x64_S1x64_S1x128_d1 : Shape.Concatenates [S1x64, S1x64] S1x128 1
  bcast_S_S1x128 : S_.BroadcastsInDim S1x128 (![] : Fin 0 → Fin S1x128.rank)
  shapeCasts_S1000000x64_S500000x128 : S1000000x64.ShapeCasts S500000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S500000x128_S1000000x64 : S500000x128.ShapeCasts S1000000x64
  dot_S1x128_S128x64_S1x64_1_0_0_1_n_n_wf : DotDims.WF S1x128 S128x64 S1x64 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S500000x128.size a
  hwx0_8 : ∀ i : grid0.Coords, EltTy.bits .f32 = 32 ∨ (Rect.block (s := S500000x128) S5000x128.size (cc0_transform_8 i) (hinb0_8 i)).WholeWords (EltTy.packing .f32)

variable [Facts₀]

def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128 : Shape := ⟨1, ![128]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S1000000x128 : Shape := ⟨2, ![1000000, 128]⟩
abbrev S1000000x192 : Shape := ⟨2, ![1000000, 192]⟩
abbrev S1x64 : Shape := ⟨2, ![1, 64]⟩
abbrev S_ : Shape := ⟨0, ![]⟩
abbrev S1000000 : Shape := ⟨1, ![1000000]⟩
abbrev S1000000x1 : Shape := ⟨2, ![1000000, 1]⟩

abbrev nBuf : Space → Nat
  | .hbm => 41
  | .vmem => 0
  | .smem => 0
  | _ => 0

abbrev bufTy : (tb : Table) → Fin (tcTables nBuf tb) → BufTy
  | .hbm, ⟨0, _⟩ => ⟨S128, .f32⟩
  | .hbm, ⟨1, _⟩ => ⟨S1000000x64, .f32⟩
  | .hbm, ⟨2, _⟩ => ⟨S1000000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1000000x128, .f32⟩
  | .hbm, ⟨8, _⟩ => ⟨S1000000x192, .f32⟩
  | .hbm, ⟨9, _⟩ => ⟨S1000000x64, .f32⟩
  | .hbm, ⟨10, _⟩ => ⟨S1x64, .f32⟩
  | .hbm, ⟨11, _⟩ => ⟨S1000000x64, .f32⟩
  | .hbm, ⟨12, _⟩ => ⟨S1000000x64, .f32⟩
  | .hbm, ⟨13, _⟩ => ⟨S_, .f32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S1000000, .f32⟩
  | .hbm, ⟨24, _⟩ => ⟨S1000000x1, .f32⟩
  | .hbm, ⟨25, _⟩ => ⟨S1000000x1, .f32⟩
  | .hbm, ⟨26, _⟩ => ⟨S_, .f32⟩
  | .hbm, ⟨27, _⟩ => ⟨S1000000x1, .f32⟩
  | .hbm, ⟨28, _⟩ => ⟨S1000000x1, .i1⟩
  | .hbm, ⟨29, _⟩ => ⟨S_, .f32⟩
  | .hbm, ⟨30, _⟩ => ⟨S1000000x1, .f32⟩
  | .hbm, ⟨31, _⟩ => ⟨S1000000x1, .f32⟩
  | .hbm, ⟨32, _⟩ => ⟨S_, .f32⟩
  | .hbm, ⟨33, _⟩ => ⟨S1000000x1, .f32⟩
  | .hbm, ⟨34, _⟩ => ⟨S1000000x1, .f32⟩
  | .hbm, ⟨35, _⟩ => ⟨S_, .f32⟩
  | .hbm, ⟨36, _⟩ => ⟨S_, .f32⟩
  | .hbm, ⟨37, _⟩ => ⟨S1000000x1, .f32⟩
  | .hbm, ⟨38, _⟩ => ⟨S1000000x1, .f32⟩
  | .hbm, ⟨39, _⟩ => ⟨S1000000x64, .f32⟩
  | .hbm, ⟨40, _⟩ => ⟨S1000000x64, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]

class Facts₀ : Prop where
  bcast_S128_S1000000x128_1 : S128.BroadcastsInDim S1000000x128 (![1] : Fin 1 → Fin S1000000x128.rank)
  concatenates_S1000000x128_S1000000x64_S1000000x192_d1 : Shape.Concatenates [S1000000x128, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  dot_S1000000x192_S192x64_S1000000x64_1_0_0_1_n_n_wf : DotDims.WF S1000000x192 S192x64 S1000000x64 [1] [0] [0] [1] [] []
  dot_S1000000x64_S64x64_S1000000x64_1_0_0_1_n_n_wf : DotDims.WF S1000000x64 S64x64 S1000000x64 [1] [0] [0] [1] [] []

variable [Facts₀]

def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.LibClampLaw.lean ====
/-
  The scale that clamps a row to the unit ball, in its two spellings, on the extended reals.

  A row whose squared Euclidean norm is `s` is multiplied by `1` when its norm is at most `1` and by the reciprocal of
  its norm otherwise. One program tests the squared norm and takes a reciprocal square root,
  `if s > 1 then rsqrt (max s 1) else 1`; the other takes the square root first,
  `if √s > 1 then 1 / max (√s) 1 else 1`. They are one function of `s` on ALL of `[-∞, +∞]`: at `+∞` both are `0`; at a
  real `s > 1` both are `(√s)⁻¹`, the square root being monotone with `√1 = 1`; at a real `s ≤ 1`, at a negative `s`
  (whose square root is the bottom element, not above `1`) and at `-∞` both are `1`.
-/
import Idealize.ShloMosaic.PureOps.Ideal
import Idealize.ShloMosaic.PureOps.Ideal.Laws

noncomputable section

namespace Cert.LibClampLaw

open Idealize.ShloMosaic

/-- The pattern of `1.0` denotes `1`. -/
theorem ofBits_one : Ideal.ofBits .f32 0x3F800000#32 = 1 := by
  simp [Ideal.ofBits, Ideal.ieee, -EReal.coe_mul]; norm_num

/-- The scale from the squared norm: `if s > 1 then rsqrt (max s 1) else 1`. -/
def scaleOfSq (s : EReal) : EReal := Scalar.select (Ideal.cmp .ogt s 1) (Ideal.rsqrt (max s 1)) 1

/-- The scale from the norm `√s`: `if √s > 1 then 1 / max (√s) 1 else 1`. -/
def scaleOfNorm (s : EReal) : EReal :=
  Scalar.select (Ideal.cmp .ogt (Ideal.sqrt s) 1) (Ideal.div 1 (max (Ideal.sqrt s) 1)) 1

theorem sel_one (a b : EReal) : Scalar.select 1#1 a b = a := if_pos rfl
theorem sel_zero (a b : EReal) : Scalar.select 0#1 a b = b := if_neg (by decide)

theorem cmp_ogt_of_lt {x y : EReal} (h : y < x) : Ideal.cmp .ogt x y = 1#1 := by
  simp [Ideal.cmp, h]

theorem cmp_ogt_of_not_lt {x y : EReal} (h : ¬ y < x) : Ideal.cmp .ogt x y = 0#1 := by
  simp [Ideal.cmp, h]

/-- The two spellings agree everywhere on the extended reals. -/
theorem scaleOfSq_eq_scaleOfNorm (s : EReal) : scaleOfSq s = scaleOfNorm s := by
  unfold scaleOfSq scaleOfNorm
  induction s using EReal.rec with
  | bot =>
    have h1 : ¬ (1 : EReal) < ⊥ := not_lt_bot
    rw [show Ideal.sqrt ⊥ = ⊥ from rfl, cmp_ogt_of_not_lt h1, sel_zero, sel_zero]
  | top =>
    have h1 : (1 : EReal) < ⊤ := EReal.coe_lt_top 1
    rw [show Ideal.sqrt ⊤ = ⊤ from rfl, cmp_ogt_of_lt h1, sel_one, sel_one,
      max_eq_left h1.le, show Ideal.rsqrt ⊤ = 0 from rfl]
    simp [Ideal.div]
  | coe r =>
    by_cases hr : 1 < r
    · have hr0 : 0 < r := lt_trans one_pos hr
      have hs : 1 < Real.sqrt r := by
        rw [show (1 : ℝ) = Real.sqrt 1 from Real.sqrt_one.symm]; exact Real.sqrt_lt_sqrt zero_le_one hr
      have hsq : Ideal.sqrt (r : EReal) = (Real.sqrt r : EReal) := by
        show (if r < 0 then ⊥ else (Real.sqrt r : EReal)) = _
        rw [if_neg (not_lt.2 hr0.le)]
      have e1 : (1 : EReal) < (r : EReal) := by exact_mod_cast hr
      have e2 : (1 : EReal) < (Real.sqrt r : EReal) := by exact_mod_cast hs
      rw [hsq, cmp_ogt_of_lt e1, cmp_ogt_of_lt e2, sel_one, sel_one, max_eq_left e1.le, max_eq_left e2.le]
      have hrs : Ideal.rsqrt (r : EReal) = (((Real.sqrt r)⁻¹ : ℝ) : EReal) := by
        show (if r < 0 then ⊥ else if r = 0 then ⊤ else (((Real.sqrt r)⁻¹ : ℝ) : EReal)) = _
        rw [if_neg (not_lt.2 hr0.le), if_neg hr0.ne']
      have hne : (Real.sqrt r : EReal) ≠ 0 := by
        have : Real.sqrt r ≠ 0 := (lt_trans one_pos hs).ne'
        exact_mod_cast this
      rw [hrs, Ideal.div, if_neg hne, one_mul, EReal.coe_inv]
    · have e1 : ¬ (1 : EReal) < (r : EReal) := by exact_mod_cast hr
      rw [cmp_ogt_of_not_lt e1]
      by_cases hneg : r < 0
      · have hsq : Ideal.sqrt (r : EReal) = ⊥ := by
          show (if r < 0 then ⊥ else (Real.sqrt r : EReal)) = _
          rw [if_pos hneg]
        rw [hsq, cmp_ogt_of_not_lt not_lt_bot, sel_zero, sel_zero]
      · have hsq : Ideal.sqrt (r : EReal) = (Real.sqrt r : EReal) := by
          show (if r < 0 then ⊥ else (Real.sqrt r : EReal)) = _
          rw [if_neg hneg]
        have hs : ¬ 1 < Real.sqrt r := by
          rw [not_lt, show (1 : ℝ) = Real.sqrt 1 from Real.sqrt_one.symm]
          exact Real.sqrt_le_sqrt (not_lt.1 hr)
        have e2 : ¬ (1 : EReal) < (Real.sqrt r : EReal) := by exact_mod_cast hs
        rw [hsq, cmp_ogt_of_not_lt e2, sel_zero, sel_zero]

end Cert.LibClampLaw

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.Payload.lean ====
/-
  The body's arithmetic on one block, read at an entry.

  A block holds 5000 packed rows of 128 lanes. From the loaded blocks `x0` (packed relation rows), `x1` (packed weight
  rows), `x2` and `x4` (the two 128 × 128 weight matrices), `x3` and `x5` (the two bias rows) and the two lane masks
  `x6`, `x7`, the body computes, at row `p` and lane `l`,

      rowPre p k = ∑ₖ' x0 (p, k') · x2 (k', k) + x3 (0, k)
      rowMsg p l = (∑ₖ max (rowPre p k) 0 · x4 (k, l) + x5 (0, l)) · x1 (p, l)
      maskedSq μ p = ∑ₗ (rowMsg p l)² · μ (0, l)                          for a mask row μ
      result (p, l) = rowMsg p l · (scale (maskedSq x6 p) · x6 (0, l) + scale (maskedSq x7 p) · x7 (0, l))

  where `scale s = if s > 1 then rsqrt (max s 1) else 1`. The matrix products are sums over the 128 contracted lanes,
  the lane reduction a sum over the 128 lanes from the accumulator's zero; a change of float format is the identity.
-/
import proofs.«159200_j335007449151_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«159200_j335007449151_2_alg».proof.Proof.LibClampLaw
import proofs.«159200_j335007449151_2_alg».proof.Proof.LibLayout
import proofs.«159200_j335007449151_2_alg».proof.Proof.LibRows

noncomputable section

namespace Cert.KernelIdeal.Body

open Cert.KernelIdeal Cert.KernelIdeal.Gen Idealize.ShloMosaic Idealize.ShloMosaic.ValueIdx

/-- The left operand's row coordinate at output `i` is `i`'s row. -/
theorem mxu_lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's column coordinate at output `i` is `i`'s column. -/
theorem mxu_rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The 5000 × 128 by 128 × 128 product into a zero accumulator, at `(p, l)`: the sum over the contracted lane. -/
theorem mxu_apply {φ₁ φ₂ : FTy} (a : FVec Ideal S5000x128 φ₁) (b : FVec Ideal S128x128 φ₂) (p : Fin 5000) (l : Fin 128) :
    matmul dot_S5000x128_S128x128_S5000x128_1_0_0_1_n_n none a b (constant S5000x128 .f32 0x00000000#32) (ix2 p l)
      = ∑ k : Fin 128, a (ix2 p k) * b (ix2 k l) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p l) ((contrEquiv1 dot_S5000x128_S128x128_S5000x128_1_0_0_1_n_n 128 rfl rfl).symm k) = ix2 p k := funext fun ax => Fin.ext (by
    match ax with
    | ⟨0, _⟩ => exact mxu_lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p l) ((contrEquiv1 dot_S5000x128_S128x128_S5000x128_1_0_0_1_n_n 128 rfl rfl).symm k) = ix2 k l := funext fun ax => Fin.ext (by
    match ax with
    | ⟨0, _⟩ => exact (dot_S5000x128_S128x128_S5000x128_1_0_0_1_n_n.rhsIdx_val_of_single rfl _ _).trans hk
    | ⟨1, _⟩ => exact mxu_rhs_1 _ _)
  rw [el, er]

section
variable (x0 x1 : Vec Ideal S5000x128 .f32) (x2 : Vec Ideal S128x128 .f32) (x3 : Vec Ideal S1x128 .f32)
  (x4 : Vec Ideal S128x128 .f32) (x5 : Vec Ideal S1x128 .f32)

/-- The first layer at row `p`, lane `k`, before the rectifier. -/
def rowPre (p : Fin 5000) (k : Fin 128) : EReal := (∑ k' : Fin 128, x0 (ix2 p k') * x2 (ix2 k' k)) + x3 (ix2 (0 : Fin 1) k)

/-- The weighted second layer at row `p`, lane `l`. -/
def rowMsg (p : Fin 5000) (l : Fin 128) : EReal :=
  ((∑ k : Fin 128, max (rowPre x0 x2 x3 p k) 0 * x4 (ix2 k l)) + x5 (ix2 (0 : Fin 1) l)) * x1 (ix2 p l)

/-- The masked sum of squares of row `p`. -/
def maskedSq (μ : Vec Ideal S1x128 .f32) (p : Fin 5000) : EReal :=
  ∑ l : Fin 128, (rowMsg x0 x1 x2 x3 x4 x5 p l * rowMsg x0 x1 x2 x3 x4 x5 p l) * μ (ix2 (0 : Fin 1) l)

theorem pay4_apply (p : Fin 5000) (l : Fin 128) :
    k0_pay4 (F := Ideal) x0 x1 x2 x3 x4 x5 (ix2 p l) = rowMsg x0 x1 x2 x3 x4 x5 p l := by
  unfold k0_pay4 rowMsg
  simp only [shapeCast_self]
  rw [mulf_apply, addf_apply, mxu_apply, broadcastTo_1b_ab_apply]
  refine congrArg (· * x1 (ix2 p l)) (congrArg (· + x5 (ix2 (0 : Fin 1) l)) (Finset.sum_congr rfl fun k _ => ?_))
  rw [truncf_apply, truncf_apply, maximumf_apply, addf_apply, mxu_apply, broadcastTo_1b_ab_apply, broadcast_apply]
  unfold rowPre
  simp only [truncf_apply]
  rw [show (Scalar.ofBits (F := Ideal) .f32 0x00000000#32) = 0 from Ideal.ofBits_zero_f32]

theorem pay5_apply (p : Fin 5000) (l : Fin 128) :
    k0_pay5 (F := Ideal) x0 x1 x2 x3 x4 x5 (ix2 p l) = rowMsg x0 x1 x2 x3 x4 x5 p l * rowMsg x0 x1 x2 x3 x4 x5 p l := by
  unfold k0_pay5
  rw [mulf_apply, pay4_apply]

theorem pay6_apply (x6 : Vec Ideal S1x128 .f32) (p : Fin 5000) :
    k0_pay6 (F := Ideal) x0 x1 x2 x3 x4 x5 x6 (ix2 p (0 : Fin 1)) = maskedSq x0 x1 x2 x3 x4 x5 x6 p := by
  unfold k0_pay6 k0_pay2 maskedSq
  simp only [shapeCast_self]
  rw [Cert.LibLayout.shapeCast_a_a1_apply]
  refine (Cert.LibRows.rowSum_apply _ _ _ _ _ p).trans ?_
  refine Finset.sum_congr rfl fun l _ => ?_
  rw [mulf_apply, pay5_apply, broadcastTo_1b_ab_apply]

theorem pay7_apply (x7 : Vec Ideal S1x128 .f32) (p : Fin 5000) :
    k0_pay7 (F := Ideal) x0 x1 x2 x3 x4 x5 x7 (ix2 p (0 : Fin 1)) = maskedSq x0 x1 x2 x3 x4 x5 x7 p := by
  unfold k0_pay7 k0_pay3 maskedSq
  simp only [shapeCast_self]
  rw [Cert.LibLayout.shapeCast_a_a1_apply]
  refine (Cert.LibRows.rowSum_apply _ _ _ _ _ p).trans ?_
  refine Finset.sum_congr rfl fun l _ => ?_
  rw [mulf_apply, pay5_apply, broadcastTo_1b_ab_apply]

end

/-- The last payload at `(p, l)`: the message entry times the two half-scales, each carried to its own lanes by its mask. -/
theorem pay1_apply (v13 v15 : FVec Ideal S1x128 .f32) (v28 : FVec Ideal S5000x128 .f32) (v33 v37 : FVec Ideal S5000x1 .f32)
    (p : Fin 5000) (l : Fin 128) :
    k0_pay1 (F := Ideal) v13 v15 v28 v33 v37 (ix2 p l)
      = v28 (ix2 p l) * (Cert.LibClampLaw.scaleOfSq (v33 (ix2 p (0 : Fin 1))) * v13 (ix2 (0 : Fin 1) l)
          + Cert.LibClampLaw.scaleOfSq (v37 (ix2 p (0 : Fin 1))) * v15 (ix2 (0 : Fin 1) l)) := by
  unfold k0_pay1
  rw [mulf_apply, addf_apply, mulf_apply, mulf_apply, Cert.LibLayout.broadcastTo_a1_ab_apply, Cert.LibLayout.broadcastTo_a1_ab_apply,
    broadcastTo_1b_ab_apply, broadcastTo_1b_ab_apply]
  show v28 (ix2 p l) * (Scalar.select (Ideal.cmp .ogt (v33 (ix2 p (0 : Fin 1))) (Ideal.ofBits .f32 0x3F800000#32))
        (Ideal.rsqrt (max (v33 (ix2 p (0 : Fin 1))) (Ideal.ofBits .f32 0x3F800000#32))) (Ideal.ofBits .f32 0x3F800000#32) * v13 (ix2 (0 : Fin 1) l)
      + Scalar.select (Ideal.cmp .ogt (v37 (ix2 p (0 : Fin 1))) (Ideal.ofBits .f32 0x3F800000#32))
        (Ideal.rsqrt (max (v37 (ix2 p (0 : Fin 1))) (Ideal.ofBits .f32 0x3F800000#32))) (Ideal.ofBits .f32 0x3F800000#32) * v15 (ix2 (0 : Fin 1) l)) = _
  rw [Cert.LibClampLaw.ofBits_one]
  rfl

end Cert.KernelIdeal.Body

end
-- ==== Proof.HalfSum.lean ====
/-
  A sum over 128 lanes against weights that vanish on one half.

  The 128 lanes are two halves of 64: lane `64·h + j` is position `j` of half `h`. If the weights `w` are zero on every
  lane outside half `h`, then `∑ₖ a k · w k` over all 128 lanes is the sum over the 64 lanes of half `h`: each other
  term is `a k · 0 = 0`, which holds for every extended real `a k`, infinite ones included. This is what a
  block-diagonal weight matrix, and a 0/1 mask of one half, do to a lane sum.
-/
import Idealize.ShloMosaic.PureOps.Ideal

noncomputable section

namespace Cert.HalfSum

/-- Lane `64·h + j`: position `j` of half `h`. -/
def lane (h : Fin 2) (j : Fin 64) : Fin 128 := ⟨64 * h.val + j.val, by have := h.isLt; have := j.isLt; omega⟩

theorem lane_val (h : Fin 2) (j : Fin 64) : (lane h j).val = 64 * h.val + j.val := rfl

theorem lane_div (h : Fin 2) (j : Fin 64) : (lane h j).val / 64 = h.val := by
  have := j.isLt; rw [lane_val]; omega

theorem lane_mod (h : Fin 2) (j : Fin 64) : (lane h j).val % 64 = j.val := by
  have := j.isLt; rw [lane_val]; omega

/-- Every lane is some position of some half. -/
theorem exists_lane (k : Fin 128) : ∃ (h : Fin 2) (j : Fin 64), k = lane h j :=
  ⟨⟨k.val / 64, by have := k.isLt; omega⟩, ⟨k.val % 64, Nat.mod_lt _ (by decide)⟩, Fin.ext (by
    show k.val = 64 * (k.val / 64) + k.val % 64; omega)⟩

/-- Weights vanishing off half `h` select that half of a lane sum. -/
theorem sum_mul_of_half (h : Fin 2) (a w : Fin 128 → EReal) (hw : ∀ (h' : Fin 2) (j : Fin 64), h' ≠ h → w (lane h' j) = 0) :
    ∑ k : Fin 128, a k * w k = ∑ j : Fin 64, a (lane h j) * w (lane h j) := by
  have key := Fin.sum_univ_add (a := 64) (b := 64) (fun k : Fin (64 + 64) => a k * w k)
  refine key.trans ?_
  match h with
  | ⟨0, _⟩ =>
    have z : ∑ i : Fin 64, a (Fin.natAdd 64 i) * w (Fin.natAdd 64 i) = 0 := Finset.sum_eq_zero fun i _ => by
      rw [show (Fin.natAdd 64 i : Fin (64 + 64)) = lane 1 i from Fin.ext (by show 64 + i.val = 64 * 1 + i.val; omega), hw 1 i (Fin.ne_of_val_ne (by show (1 : Nat) ≠ 0; decide)), mul_zero]
    rw [z, add_zero]
    refine Finset.sum_congr rfl fun i _ => ?_
    have e : (Fin.castAdd 64 i : Fin (64 + 64)) = lane ⟨0, by omega⟩ i := Fin.ext (by show i.val = 64 * 0 + i.val; omega)
    rw [e]
  | ⟨1, _⟩ =>
    have z : ∑ i : Fin 64, a (Fin.castAdd 64 i) * w (Fin.castAdd 64 i) = 0 := Finset.sum_eq_zero fun i _ => by
      rw [show (Fin.castAdd 64 i : Fin (64 + 64)) = lane 0 i from Fin.ext (by show i.val = 64 * 0 + i.val; omega), hw 0 i (Fin.ne_of_val_ne (by show (0 : Nat) ≠ 1; decide)), mul_zero]
    rw [z, zero_add]
    refine Finset.sum_congr rfl fun i _ => ?_
    have e : (Fin.natAdd 64 i : Fin (64 + 64)) = lane ⟨1, by omega⟩ i := Fin.ext (by show 64 + i.val = 64 * 1 + i.val; omega)
    rw [e]

end Cert.HalfSum

end
-- ==== Proof.Spec.lean ====
/-
  The specification: what both programs compute, as one function of the argument arrays, entry by entry.

  There are a million edges. Edge `e` has a relation row `Mij e` and a weight row `fw e`, both of length 64, and all
  edges share one node latent `zei` of length 128. The input of the two-layer perceptron at edge `e` is the latent
  followed by the relation row, 192 numbers; its first layer is `W1` (192 × 64) with bias `b1`, so the pre-activation is

      pre e j = ∑ₖ zei k · W1 (k, j)  +  ∑ₖ Mij (e, k) · W1 (128 + k, j)  +  b1 j,

  the sum over the 192 inputs written as its first 128 terms (the latent's, the same for every edge) and its last 64
  (the edge's own). The hidden layer is `max (pre e j) 0`, the second layer gives `∑ₖ hid e k · W2 (k, j) + b2 j`, the
  message is that times `fw (e, j)`, and the result is the message times the scale that clamps the message row to the
  unit ball: a function of the row's squared norm `∑ₖ (msg e k)²` (Proof/LibClampLaw.lean).
-/
import Idealize.ShloMosaic.PureOps.Ideal
import Idealize.ShloMosaic.Lib.ValueIdx
import proofs.«159200_j335007449151_2_alg».proof.Proof.LibClampLaw

noncomputable section

namespace Cert.EdgeSpec

open Idealize.ShloMosaic Idealize.ShloMosaic.ValueIdx

/-- Row `k` of the first layer's top block: the rows that meet the latent. -/
def top (k : Fin 128) : Fin 192 := ⟨k.val, by have := k.isLt; omega⟩
/-- Row `128 + k` of the first layer: the rows that meet the relation row. -/
def low (k : Fin 64) : Fin 192 := ⟨128 + k.val, by have := k.isLt; omega⟩

variable (zei : (⟨1, ![128]⟩ : Shape).Idx → EReal) (Mij fw : (⟨2, ![1000000, 64]⟩ : Shape).Idx → EReal)
  (W1 : (⟨2, ![192, 64]⟩ : Shape).Idx → EReal) (b1 : (⟨1, ![64]⟩ : Shape).Idx → EReal)
  (W2 : (⟨2, ![64, 64]⟩ : Shape).Idx → EReal) (b2 : (⟨1, ![64]⟩ : Shape).Idx → EReal)

/-- The latent's share of the first layer plus its bias: the same for every edge. -/
def latentBias (j : Fin 64) : EReal := (∑ k : Fin 128, zei (ix1 k) * W1 (ix2 (top k) j)) + b1 (ix1 j)

/-- The edge's own share of the first layer. -/
def edgeShare (e : Fin 1000000) (j : Fin 64) : EReal := ∑ k : Fin 64, Mij (ix2 e k) * W1 (ix2 (low k) j)

/-- The hidden layer: the rectified pre-activation. -/
def hid (e : Fin 1000000) (j : Fin 64) : EReal := max (edgeShare Mij W1 e j + latentBias zei W1 b1 j) 0

/-- The message: the second layer's output weighted entry by entry. -/
def msg (e : Fin 1000000) (j : Fin 64) : EReal :=
  ((∑ k : Fin 64, hid zei Mij W1 b1 e k * W2 (ix2 k j)) + b2 (ix1 j)) * fw (ix2 e j)

/-- The squared norm of an edge's message row. -/
def sumsq (e : Fin 1000000) : EReal := ∑ k : Fin 64, msg zei Mij fw W1 b1 W2 b2 e k * msg zei Mij fw W1 b1 W2 b2 e k

/-- The result: each message row clamped to the unit ball. -/
def G : (⟨2, ![1000000, 64]⟩ : Shape).Idx → EReal := fun i =>
  msg zei Mij fw W1 b1 W2 b2 (i 0) (i 1) * Cert.LibClampLaw.scaleOfNorm (sumsq zei Mij fw W1 b1 W2 b2 (i 0))

end Cert.EdgeSpec

end
-- ==== Proof.Staged.lean ====
/-
  The arrays the host lays out for the region, read at an entry.

  Before the region the host re-lays the arguments. Two consecutive edges share one packed row of 128 lanes: packed
  row `r` holds edge `2r` in lanes 0–63 and edge `2r + 1` in lanes 64–127, so lane `64·h + j` of packed row `r` is
  entry `j` of edge `2r + h` (a reshape keeps row-major positions: `(2r + h)·64 + j = r·128 + 64·h + j`). A 64 × 64
  matrix `a` becomes the 128 × 128 block-diagonal matrix with `a` in both diagonal blocks and zeros elsewhere; a vector
  of length 64 becomes the row of length 128 that repeats it; the first mask is `1` on the first half of the lanes and
  `0` on the second, and the second mask is `1` minus the first. The first layer's bias row is the latent's share of
  the first layer plus `b1`: the product of the latent, as a one-row matrix, with the top 128 rows of `W1`.
-/
import proofs.«159200_j335007449151_2_alg».proof.Proof.Gen.KernelIdeal
import proofs.«159200_j335007449151_2_alg».proof.Proof.HalfSum
import proofs.«159200_j335007449151_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Staged

open Cert.KernelIdeal Cert.KernelIdeal.Facts₀ Idealize.ShloMosaic Idealize.ShloMosaic.ValueIdx Cert.HalfSum Cert.EdgeSpec

/-! ## Two edges to a packed row -/

/-- An edge array with two consecutive rows side by side. -/
def packed (a : FVec Ideal S1000000x64 .f32) : FVec Ideal S500000x128 .f32 :=
  shapeCast S500000x128 a shapeCasts_S1000000x64_S500000x128

/-- Edge `2r + h`. -/
def edgeOf (r : Fin 500000) (h : Fin 2) : Fin 1000000 := ⟨2 * r.val + h.val, by have := r.isLt; have := h.isLt; omega⟩

/-- Lane `64·h + j` of packed row `r` is entry `j` of edge `2r + h`. -/
theorem packed_apply (a : FVec Ideal S1000000x64 .f32) (r : Fin 500000) (h : Fin 2) (j : Fin 64) :
    packed a (ix2 r (lane h j)) = a (ix2 (edgeOf r h) j) :=
  shapeCast_apply a shapeCasts_S1000000x64_S500000x128 (ix2 r (lane h j)) (ix2 (edgeOf r h) j) (by
    rw [Shape.rowMajor_val_two, Shape.rowMajor_val_two]
    show (2 * r.val + h.val) * 64 + j.val = r.val * 128 + (64 * h.val + j.val)
    omega)

/-! ## A matrix on both diagonal blocks -/

/-- The 64 × 64 block of zeros. -/
def zeros64 : FVec Ideal S64x64 .f32 := broadcastInDim S64x64 ![] bcast_S_S64x64 (constant (F := Ideal) S_ .f32 0x00000000#32)

theorem zeros64_apply (i : S64x64.Idx) : zeros64 i = 0 := Ideal.ofBits_zero_f32

/-- `a` on both diagonal blocks, zeros off them. -/
def blockDiag (a : FVec Ideal S64x64 .f32) : FVec Ideal S128x128 .f32 :=
  concatenate S128x128 0
    [⟨S64x128, concatenate S64x128 1 [⟨S64x64, a⟩, ⟨S64x64, zeros64⟩] concatenates_S64x64_S64x64_S64x128_d1⟩,
      ⟨S64x128, concatenate S64x128 1 [⟨S64x64, zeros64⟩, ⟨S64x64, a⟩] concatenates_S64x64_S64x64_S64x128_d1⟩]
    concatenates_S64x128_S64x128_S128x128_d0

/-- A row of the top half of the rows is the row of the top 64 × 128 piece. -/
theorem blockDiag_top (a : FVec Ideal S64x64 .f32) (k : Fin 64) (l : Fin 128) :
    blockDiag a (ix2 (lane 0 k) l)
      = concatenate S64x128 1 [⟨S64x64, a⟩, ⟨S64x64, zeros64⟩] concatenates_S64x64_S64x64_S64x128_d1 (ix2 k l) :=
  concatenate_pair_apply_left (t := S128x128) (s₁ := S64x128) (s₂ := S64x128) (0 : Fin 2) _ _ _ (ix2 (lane 0 k) l) rfl
    (ix2 k l : S64x128.Idx) (fun b => by
      match b with
      | ⟨0, _⟩ => show k.val = 64 * 0 + k.val; omega
      | ⟨1, _⟩ => rfl)

/-- A row of the bottom half is the row of the bottom piece. -/
theorem blockDiag_bot (a : FVec Ideal S64x64 .f32) (k : Fin 64) (l : Fin 128) :
    blockDiag a (ix2 (lane 1 k) l)
      = concatenate S64x128 1 [⟨S64x64, zeros64⟩, ⟨S64x64, a⟩] concatenates_S64x64_S64x64_S64x128_d1 (ix2 k l) :=
  concatenate_pair_apply_right (t := S128x128) (s₁ := S64x128) (s₂ := S64x128) (0 : Fin 2) _ _ _ (ix2 (lane 1 k) l) rfl rfl
    (ix2 k l : S64x128.Idx) (fun b hb => by
      match b with
      | ⟨0, _⟩ => exact absurd (Fin.ext rfl) hb
      | ⟨1, _⟩ => rfl)
    (by show k.val + 64 = 64 * 1 + k.val; omega)

/-- The left half of a two-piece row. -/
theorem cols_left (x y : FVec Ideal S64x64 .f32) (k j : Fin 64) :
    concatenate S64x128 1 [⟨S64x64, x⟩, ⟨S64x64, y⟩] concatenates_S64x64_S64x64_S64x128_d1 (ix2 k (lane 0 j)) = x (ix2 k j) :=
  concatenate_pair_apply_left (t := S64x128) (s₁ := S64x64) (s₂ := S64x64) (1 : Fin 2) _ _ _ (ix2 k (lane 0 j)) rfl
    (ix2 k j : S64x64.Idx) (fun b => by
      match b with
      | ⟨0, _⟩ => rfl
      | ⟨1, _⟩ => show j.val = 64 * 0 + j.val; omega)

/-- The right half of a two-piece row. -/
theorem cols_right (x y : FVec Ideal S64x64 .f32) (k j : Fin 64) :
    concatenate S64x128 1 [⟨S64x64, x⟩, ⟨S64x64, y⟩] concatenates_S64x64_S64x64_S64x128_d1 (ix2 k (lane 1 j)) = y (ix2 k j) :=
  concatenate_pair_apply_right (t := S64x128) (s₁ := S64x64) (s₂ := S64x64) (1 : Fin 2) _ _ _ (ix2 k (lane 1 j)) rfl rfl
    (ix2 k j : S64x64.Idx) (fun b hb => by
      match b with
      | ⟨0, _⟩ => rfl
      | ⟨1, _⟩ => exact absurd (Fin.ext rfl) hb)
    (by show j.val + 64 = 64 * 1 + j.val; omega)

/-- On a diagonal block the matrix is `a`. -/
theorem blockDiag_same (a : FVec Ideal S64x64 .f32) (h : Fin 2) (k j : Fin 64) :
    blockDiag a (ix2 (lane h k) (lane h j)) = a (ix2 k j) := by
  match h with
  | ⟨0, _⟩ => exact (blockDiag_top a k _).trans (cols_left a zeros64 k j)
  | ⟨1, _⟩ => exact (blockDiag_bot a k _).trans (cols_right zeros64 a k j)

/-- Off the diagonal blocks it is zero. -/
theorem blockDiag_other (a : FVec Ideal S64x64 .f32) (h' h : Fin 2) (hne : h' ≠ h) (k j : Fin 64) :
    blockDiag a (ix2 (lane h' k) (lane h j)) = 0 := by
  match h', h, hne with
  | ⟨0, _⟩, ⟨1, _⟩, _ => exact ((blockDiag_top a k _).trans (cols_right a zeros64 k j)).trans (zeros64_apply _)
  | ⟨1, _⟩, ⟨0, _⟩, _ => exact ((blockDiag_bot a k _).trans (cols_left zeros64 a k j)).trans (zeros64_apply _)
  | ⟨0, _⟩, ⟨0, _⟩, hne => exact absurd (Fin.ext rfl) hne
  | ⟨1, _⟩, ⟨1, _⟩, hne => exact absurd (Fin.ext rfl) hne

/-! ## A vector of length 64 repeated over the 128 lanes -/

/-- The row `[v | v]`. -/
def tiled (v : FVec Ideal S64 .f32) : FVec Ideal S1x128 .f32 :=
  broadcastInDim S1x128 ![1] bcast_S128_S1x128_1 (concatenate S128 0 [⟨S64, v⟩, ⟨S64, v⟩] concatenates_S64_S64_S128_d0)

theorem tiled_apply (v : FVec Ideal S64 .f32) (h : Fin 2) (j : Fin 64) : tiled v (ix2 (0 : Fin 1) (lane h j)) = v (ix1 j) := by
  unfold tiled
  refine (broadcastInDim_apply _ bcast_S128_S1x128_1 _ (ix2 (0 : Fin 1) (lane h j)) (ix1 (lane h j)) (fun a => by
    match a with
    | ⟨0, _⟩ => show (lane h j).val = if (128 : Nat) = 1 then 0 else (lane h j).val; rw [if_neg (by decide)])).trans ?_
  match h with
  | ⟨0, _⟩ =>
    exact concatenate_pair_apply_left (t := S128) (s₁ := S64) (s₂ := S64) (0 : Fin 1) _ _ _ (ix1 (lane 0 j)) rfl (ix1 j : S64.Idx)
      (fun b => by match b with | ⟨0, _⟩ => show j.val = 64 * 0 + j.val; omega)
  | ⟨1, _⟩ =>
    exact concatenate_pair_apply_right (t := S128) (s₁ := S64) (s₂ := S64) (0 : Fin 1) _ _ _ (ix1 (lane 1 j)) rfl rfl (ix1 j : S64.Idx)
      (fun b hb => by match b with | ⟨0, _⟩ => exact absurd (Fin.ext rfl) hb)
      (by show j.val + 64 = 64 * 1 + j.val; omega)

/-! ## The two lane masks -/

/-- `1` on the first half of the lanes, `0` on the second. -/
def maskA : FVec Ideal S1x128 .f32 :=
  concatenate S1x128 1
    [⟨S1x64, broadcastInDim S1x64 ![] bcast_S_S1x64 (constant (F := Ideal) S_ .f32 0x3F800000#32)⟩,
      ⟨S1x64, broadcastInDim S1x64 ![] bcast_S_S1x64 (constant (F := Ideal) S_ .f32 0x00000000#32)⟩]
    concatenates_S1x64_S1x64_S1x128_d1

/-- `1` minus the first mask. -/
def maskB : FVec Ideal S1x128 .f32 :=
  subf (broadcastInDim S1x128 ![] bcast_S_S1x128 (constant (F := Ideal) S_ .f32 0x3F800000#32)) maskA

theorem maskA_first (j : Fin 64) : maskA (ix2 (0 : Fin 1) (lane 0 j)) = 1 :=
  (concatenate_pair_apply_left (t := S1x128) (s₁ := S1x64) (s₂ := S1x64) (1 : Fin 2) _ _ _ (ix2 (0 : Fin 1) (lane 0 j)) rfl
    (ix2 (0 : Fin 1) j : S1x64.Idx) (fun b => by
      match b with
      | ⟨0, _⟩ => rfl
      | ⟨1, _⟩ => show j.val = 64 * 0 + j.val; omega)).trans Cert.LibClampLaw.ofBits_one

theorem maskA_second (j : Fin 64) : maskA (ix2 (0 : Fin 1) (lane 1 j)) = 0 :=
  (concatenate_pair_apply_right (t := S1x128) (s₁ := S1x64) (s₂ := S1x64) (1 : Fin 2) _ _ _ (ix2 (0 : Fin 1) (lane 1 j)) rfl rfl
    (ix2 (0 : Fin 1) j : S1x64.Idx) (fun b hb => by
      match b with
      | ⟨0, _⟩ => rfl
      | ⟨1, _⟩ => exact absurd (Fin.ext rfl) hb)
    (by show j.val + 64 = 64 * 1 + j.val; omega)).trans Ideal.ofBits_zero_f32

theorem maskB_first (j : Fin 64) : maskB (ix2 (0 : Fin 1) (lane 0 j)) = 0 := by
  show Ideal.ofBits .f32 0x3F800000#32 - maskA (ix2 (0 : Fin 1) (lane 0 j)) = 0
  rw [maskA_first, Cert.LibClampLaw.ofBits_one, show (1 : EReal) = ((1 : ℝ) : EReal) from rfl, ← EReal.coe_sub, sub_self, EReal.coe_zero]

theorem maskB_second (j : Fin 64) : maskB (ix2 (0 : Fin 1) (lane 1 j)) = 1 := by
  show Ideal.ofBits .f32 0x3F800000#32 - maskA (ix2 (0 : Fin 1) (lane 1 j)) = 1
  rw [maskA_second, Cert.LibClampLaw.ofBits_one, sub_zero]

/-! ## The first layer's bias row -/

section
variable (a0 : FVec Ideal S128 .f32) (a3 : FVec Ideal S192x64 .f32) (a4 : FVec Ideal S64 .f32)

/-- The latent, as a one-row matrix, times the top 128 rows of `W1`, plus `b1`. -/
def bias1 : FVec Ideal S64 .f32 :=
  addf (shapeCast S64 (Host.dotGeneral (F := Ideal) dot_S1x128_S128x64_S1x64_1_0_0_1_n_n none
      (shapeCast S1x128 a0 shapeCasts_S128_S1x128) (extractStridedSlice S128x64 ![0, 0] a3 slices_S192x64_S128x64_0_0))
    shapeCasts_S1x64_S64) a4

theorem bias1_apply (j : Fin 64) : bias1 a0 a3 a4 (ix1 j) = latentBias a0 a3 a4 j := by
  unfold bias1 latentBias
  rw [addf_apply, shapeCast_1a_a_apply]
  refine congrArg (· + a4 (ix1 j)) ?_
  simp only [Host.dotGeneral]
  rw [Ideal.dotGeneral_apply, ← Equiv.sum_comp (contrEquiv1 dot_S1x128_S128x64_S1x64_1_0_0_1_n_n 128 rfl rfl).symm]
  refine Finset.sum_congr rfl fun k _ => ?_
  have hk := contrEquiv1_symm_val dot_S1x128_S128x64_S1x64_1_0_0_1_n_n 128 rfl rfl k
  have el : dot_S1x128_S128x64_S1x64_1_0_0_1_n_n.lhsIdx (ix2 (0 : Fin 1) j) ((contrEquiv1 dot_S1x128_S128x64_S1x64_1_0_0_1_n_n 128 rfl rfl).symm k)
      = ix2 (0 : Fin 1) k := funext fun ax => Fin.ext (by
    match ax with
    | ⟨0, _⟩ => exact Nat.lt_one_iff.1 (Fin.isLt _)
    | ⟨1, _⟩ => exact (dot_S1x128_S128x64_S1x64_1_0_0_1_n_n.lhsIdx_val_of_single rfl _ _).trans hk)
  have er : dot_S1x128_S128x64_S1x64_1_0_0_1_n_n.rhsIdx (ix2 (0 : Fin 1) j) ((contrEquiv1 dot_S1x128_S128x64_S1x64_1_0_0_1_n_n 128 rfl rfl).symm k)
      = ix2 k j := funext fun ax => Fin.ext (by
    match ax with
    | ⟨0, _⟩ => exact (dot_S1x128_S128x64_S1x64_1_0_0_1_n_n.rhsIdx_val_of_single rfl _ _).trans hk
    | ⟨1, _⟩ =>
      have hq : ∀ (i : S1x64.Idx) (q : dot_S1x128_S128x64_S1x64_1_0_0_1_n_n.contr.Idx),
          (dot_S1x128_S128x64_S1x64_1_0_0_1_n_n.rhsIdx i q 1).val = (i 1).val := fun i q => by
        unfold DotDims.rhsIdx
        rw [dif_neg (show ¬(1 : Fin S128x64.rank) ∈ dot_S1x128_S128x64_S1x64_1_0_0_1_n_n.rhsBatch by decide),
          dif_pos (show (1 : Fin S128x64.rank) ∈ dot_S1x128_S128x64_S1x64_1_0_0_1_n_n.rhsNonContracting by decide)]
        rfl
      exact hq _ _)
  rw [el, er, shapeCast_a_1a_apply]
  refine congrArg (a0 (ix1 k) * ·) ?_
  exact extractStridedSlice_apply ![0, 0] a3 slices_S192x64_S128x64_0_0 (ix2 k j) (ix2 (top k) j) (fun ax => by
    match ax with
    | ⟨0, _⟩ => show k.val = 0 + k.val; omega
    | ⟨1, _⟩ => show j.val = 0 + j.val; omega)

/-- The bottom 64 rows of `W1`: the rows that meet the relation row. -/
def w1low : FVec Ideal S64x64 .f32 := extractStridedSlice S64x64 ![128, 0] a3 slices_S192x64_S64x64_128_0

theorem w1low_apply (k j : Fin 64) : w1low a3 (ix2 k j) = a3 (ix2 (low k) j) := by
  unfold w1low
  exact extractStridedSlice_apply ![128, 0] a3 slices_S192x64_S64x64_128_0 (ix2 k j) (ix2 (low k) j) (fun ax => by
    match ax with
    | ⟨0, _⟩ => show 128 + k.val = 128 + k.val; rfl
    | ⟨1, _⟩ => show j.val = 0 + j.val; omega)

end

end Cert.KernelIdeal.Staged

end
-- ==== Proof.BlockValue.lean ====
/-
  What the body leaves in a block is the packed specification.

  Suppose the body's eight loaded blocks hold: row `p` of `x0` and of `x1` the packed rows `r` of the relation and
  weight arrays; `x2` and `x4` the block-diagonal forms of the bottom rows of `W1` and of `W2`; `x3` and `x5` the
  repeated first-layer bias row and `b2`; `x6` and `x7` the two lane masks. Then at lane `64·h + j` of row `p` the body
  leaves the specification at edge `2r + h`, entry `j`:

  * a product with a block-diagonal matrix only meets the 64 lanes of its own half (Proof/HalfSum.lean), so the first
    product is the edge's own share of the first layer and the second is the second layer of that edge's hidden row;
  * the bias row adds the latent's share and `b1` — the same three summands as the specification's, in another order;
  * a mask keeps the squares of one half, so the two masked sums are the squared norms of edges `2r` and `2r + 1`;
  * `scale_a · mask_a + scale_b · mask_b` is `scale_a · 1 + scale_b · 0` on the first half of the lanes and
    `scale_a · 0 + scale_b · 1` on the second: each edge's own scale on its own lanes, with no condition on the other
    edge's scale, since `x · 0 = 0` for every extended real;
  * the scale from the squared norm is the scale from the norm (Proof/LibClampLaw.lean).
-/
import proofs.«159200_j335007449151_2_alg».proof.Proof.Gen.KernelIdeal.Frame
import proofs.«159200_j335007449151_2_alg».proof.Proof.Payload
import proofs.«159200_j335007449151_2_alg».proof.Proof.Staged
import proofs.«159200_j335007449151_2_alg».proof.Proof.Spec
import proofs.«159200_j335007449151_2_alg».proof.Proof.HalfSum
import proofs.«159200_j335007449151_2_alg».proof.Proof.LibClampLaw

noncomputable section

namespace Cert.KernelIdeal.BlockValue

open Cert.KernelIdeal Cert.KernelIdeal.Gen Idealize.ShloMosaic Idealize.ShloMosaic.ValueIdx
open Cert.HalfSum Cert.EdgeSpec Cert.KernelIdeal.Body Cert.KernelIdeal.Staged

variable (a0 : FVec Ideal S128 .f32) (a1 a2 : FVec Ideal S1000000x64 .f32) (a3 : FVec Ideal S192x64 .f32)
  (a4 : FVec Ideal S64 .f32) (a5 : FVec Ideal S64x64 .f32) (a6 : FVec Ideal S64 .f32)

/-- The specification, two edges to a packed row. -/
def Gp : FVec Ideal S500000x128 .f32 := packed (G a0 a1 a2 a3 a4 a5 a6)

variable (x0 x1 : Vec Ideal S5000x128 .f32) (x2 : Vec Ideal S128x128 .f32) (x3 : Vec Ideal S1x128 .f32)
  (x4 : Vec Ideal S128x128 .f32) (x5 : Vec Ideal S1x128 .f32) (x6 x7 : Vec Ideal S1x128 .f32)
  (r : Fin 500000) (p : Fin 5000)

/-- The first layer before the rectifier, at a lane of half `h`: edge `2r + h`'s own share plus the latent's and `b1`. -/
theorem rowPre_lane (h0 : ∀ k : Fin 128, x0 (ix2 p k) = packed a1 (ix2 r k)) (h2 : x2 = blockDiag (w1low a3))
    (h3 : x3 = tiled (bias1 a0 a3 a4)) (h : Fin 2) (j : Fin 64) :
    rowPre x0 x2 x3 p (lane h j) = edgeShare a1 a3 (edgeOf r h) j + latentBias a0 a3 a4 j := by
  unfold rowPre
  subst h2 h3
  rw [tiled_apply, bias1_apply]
  refine congrArg (· + latentBias a0 a3 a4 j) ?_
  refine (sum_mul_of_half h (fun k => x0 (ix2 p k)) (fun k => blockDiag (w1low a3) (ix2 k (lane h j)))
    (fun h' k hne => blockDiag_other _ h' h hne k j)).trans ?_
  unfold edgeShare
  refine Finset.sum_congr rfl fun k _ => ?_
  rw [h0, packed_apply, blockDiag_same, w1low_apply]

/-- The message at a lane of half `h`: the specification's message of edge `2r + h`. -/
theorem rowMsg_lane (h0 : ∀ k : Fin 128, x0 (ix2 p k) = packed a1 (ix2 r k)) (h1 : ∀ l : Fin 128, x1 (ix2 p l) = packed a2 (ix2 r l))
    (h2 : x2 = blockDiag (w1low a3)) (h3 : x3 = tiled (bias1 a0 a3 a4)) (h4 : x4 = blockDiag a5) (h5 : x5 = tiled a6)
    (h : Fin 2) (j : Fin 64) :
    rowMsg x0 x1 x2 x3 x4 x5 p (lane h j) = msg a0 a1 a2 a3 a4 a5 a6 (edgeOf r h) j := by
  unfold rowMsg msg
  subst h4 h5
  rw [tiled_apply, h1, packed_apply]
  refine congrArg (· * a2 (ix2 (edgeOf r h) j)) (congrArg (· + a6 (ix1 j)) ?_)
  refine (sum_mul_of_half h (fun k => max (rowPre x0 x2 x3 p k) 0) (fun k => blockDiag a5 (ix2 k (lane h j)))
    (fun h' k hne => blockDiag_other _ h' h hne k j)).trans ?_
  refine Finset.sum_congr rfl fun k _ => ?_
  rw [rowPre_lane a0 a1 a3 a4 x0 x2 x3 r p h0 h2 h3, blockDiag_same]
  rfl

/-- A mask that is `1` on half `h` and `0` on the other keeps the squared norm of edge `2r + h`. -/
theorem maskedSq_half (h0 : ∀ k : Fin 128, x0 (ix2 p k) = packed a1 (ix2 r k)) (h1 : ∀ l : Fin 128, x1 (ix2 p l) = packed a2 (ix2 r l))
    (h2 : x2 = blockDiag (w1low a3)) (h3 : x3 = tiled (bias1 a0 a3 a4)) (h4 : x4 = blockDiag a5) (h5 : x5 = tiled a6)
    (μ : Vec Ideal S1x128 .f32) (h : Fin 2) (hon : ∀ j : Fin 64, μ (ix2 (0 : Fin 1) (lane h j)) = 1)
    (hoff : ∀ (h' : Fin 2) (j : Fin 64), h' ≠ h → μ (ix2 (0 : Fin 1) (lane h' j)) = 0) :
    maskedSq x0 x1 x2 x3 x4 x5 μ p = sumsq a0 a1 a2 a3 a4 a5 a6 (edgeOf r h) := by
  unfold maskedSq sumsq
  refine (sum_mul_of_half h (fun l => rowMsg x0 x1 x2 x3 x4 x5 p l * rowMsg x0 x1 x2 x3 x4 x5 p l) (fun l => μ (ix2 (0 : Fin 1) l)) hoff).trans ?_
  refine Finset.sum_congr rfl fun k _ => ?_
  rw [hon, mul_one, rowMsg_lane a0 a1 a2 a3 a4 a5 a6 x0 x1 x2 x3 x4 x5 r p h0 h1 h2 h3 h4 h5]

theorem maskA_off (h' : Fin 2) (j : Fin 64) (hne : h' ≠ 0) : maskA (ix2 (0 : Fin 1) (lane h' j)) = 0 := by
  match h', hne with
  | ⟨1, _⟩, _ => exact maskA_second j
  | ⟨0, _⟩, hne => exact absurd (Fin.ext rfl) hne

theorem maskB_off (h' : Fin 2) (j : Fin 64) (hne : h' ≠ 1) : maskB (ix2 (0 : Fin 1) (lane h' j)) = 0 := by
  match h', hne with
  | ⟨0, _⟩, _ => exact maskB_first j
  | ⟨1, _⟩, hne => exact absurd (Fin.ext rfl) hne

theorem hz : (![0, 0] : Fin 2 → Nat) = fun _ => 0 := funext fun a => by fin_cases a <;> rfl

/-- What the body leaves at row `p`, lane `l`, is the packed specification at packed row `r`, lane `l`. -/
theorem body_block (h0 : ∀ k : Fin 128, x0 (ix2 p k) = packed a1 (ix2 r k)) (h1 : ∀ l : Fin 128, x1 (ix2 p l) = packed a2 (ix2 r l))
    (h2 : x2 = blockDiag (w1low a3)) (h3 : x3 = tiled (bias1 a0 a3 a4)) (h4 : x4 = blockDiag a5) (h5 : x5 = tiled a6)
    (h6 : x6 = maskA) (h7 : x7 = maskB) (l : Fin 128) :
    out0_8 (F := Ideal) x0 x1 x2 x3 x4 x5 x6 x7 (ix2 p l) = Gp a0 a1 a2 a3 a4 a5 a6 (ix2 r l) := by
  obtain ⟨h, j, rfl⟩ := exists_lane l
  unfold out0_8
  rw [View.canon_unit_zero hz]
  simp only [View.ld_unit_zero (S := S5000x128) hz, View.ld_unit_zero (S := S128x128) hz, View.ld_unit_zero (S := S1x128) hz]
  rw [pay1_apply, pay4_apply, pay6_apply, pay7_apply]
  simp only [k0_pay2, k0_pay3, shapeCast_self]
  subst h6 h7
  rw [maskedSq_half a0 a1 a2 a3 a4 a5 a6 x0 x1 x2 x3 x4 x5 r p h0 h1 h2 h3 h4 h5 maskA 0 maskA_first (fun h' j hne => maskA_off h' j hne),
    maskedSq_half a0 a1 a2 a3 a4 a5 a6 x0 x1 x2 x3 x4 x5 r p h0 h1 h2 h3 h4 h5 maskB 1 maskB_second (fun h' j hne => maskB_off h' j hne),
    rowMsg_lane a0 a1 a2 a3 a4 a5 a6 x0 x1 x2 x3 x4 x5 r p h0 h1 h2 h3 h4 h5]
  unfold Gp
  rw [packed_apply]
  unfold G
  have hh : h = 0 ∨ h = 1 := by
    match h with
    | ⟨0, _⟩ => exact Or.inl rfl
    | ⟨1, _⟩ => exact Or.inr rfl
  rcases hh with rfl | rfl
  · rw [maskA_first, maskB_first, mul_one, mul_zero, add_zero, Cert.LibClampLaw.scaleOfSq_eq_scaleOfNorm]
  · rw [maskA_second, maskB_second, mul_one, mul_zero, zero_add, Cert.LibClampLaw.scaleOfSq_eq_scaleOfNorm]

end Cert.KernelIdeal.BlockValue

end
-- ==== Proof.EntryRows.lean ====
/-
  What the region finds in the arrays the host lays out from the edge arrays and the weight matrices: the two packed
  edge arrays and the two block-diagonal weight matrices, each the host's operations applied to the arguments as launched.
-/
import proofs.«159200_j335007449151_2_alg».proof.Proof.Gen.KernelIdeal.Frame
import proofs.«159200_j335007449151_2_alg».proof.Proof.Staged
import Idealize.ShloMosaic.Lib.StableHlo.Run
import Idealize.ShloMosaic.PureOps.Ideal

noncomputable section

namespace Cert.KernelIdeal.EntryRows

open Cert.KernelIdeal Cert.KernelIdeal.Gen Idealize.ShloMosaic Idealize.ShloMosaic.TcCoe Idealize.SL.Sem Idealize.ShloMosaic.StableHlo
open Cert.KernelIdeal.Staged

variable (m : (ℓ : Loc nD τ sig) → Buf (Elt Ideal) ℓ) (c : Dev nD)

/-- The packed relation rows. -/
theorem rel_eq : (V m c main_v23 : S500000x128.Idx → EReal) = packed (m ((c : Thread nD τ).loc main_arg1)) := by
  show StableHlo.after (hostOps0 (F := Ideal)) (fun b => m (c, b)) (Proc.devRef .tc main_v23) = _
  after_results
  rfl

/-- The packed weight rows. -/
theorem wts_eq : (V m c main_v24 : S500000x128.Idx → EReal) = packed (m ((c : Thread nD τ).loc main_arg2)) := by
  show StableHlo.after (hostOps0 (F := Ideal)) (fun b => m (c, b)) (Proc.devRef .tc main_v24) = _
  after_results
  rfl

/-- The bottom rows of `W1` on both diagonal blocks. -/
theorem w1_eq : (V m c main_v9 : S128x128.Idx → EReal) = blockDiag (w1low (m ((c : Thread nD τ).loc main_arg3))) := by
  show StableHlo.after (hostOps0 (F := Ideal)) (fun b => m (c, b)) (Proc.devRef .tc main_v9) = _
  after_results
  rfl

/-- `W2` on both diagonal blocks. -/
theorem w2_eq : (V m c main_v13 : S128x128.Idx → EReal) = blockDiag (m ((c : Thread nD τ).loc main_arg5)) := by
  show StableHlo.after (hostOps0 (F := Ideal)) (fun b => m (c, b)) (Proc.devRef .tc main_v13) = _
  after_results
  rfl

end Cert.KernelIdeal.EntryRows

end
-- ==== Proof.EntryLanes.lean ====
/-
  What the region finds in the four one-row arrays the host lays out: the repeated first-layer bias row, the repeated
  second bias, and the two lane masks, each the host's operations applied to the arguments as launched.
-/
import proofs.«159200_j335007449151_2_alg».proof.Proof.Gen.KernelIdeal.Frame
import proofs.«159200_j335007449151_2_alg».proof.Proof.Staged
import Idealize.ShloMosaic.Lib.StableHlo.Run
import Idealize.ShloMosaic.PureOps.Ideal

noncomputable section

namespace Cert.KernelIdeal.EntryLanes

open Cert.KernelIdeal Cert.KernelIdeal.Gen Idealize.ShloMosaic Idealize.ShloMosaic.TcCoe Idealize.SL.Sem Idealize.ShloMosaic.StableHlo
open Cert.KernelIdeal.Staged

variable (m : (ℓ : Loc nD τ sig) → Buf (Elt Ideal) ℓ) (c : Dev nD)

/-- The first layer's bias row, repeated over both halves. -/
theorem bias1_eq : (V m c main_v15 : S1x128.Idx → EReal) = tiled (bias1 (m ((c : Thread nD τ).loc main_arg0)) (m ((c : Thread nD τ).loc main_arg3)) (m ((c : Thread nD τ).loc main_arg4))) := by
  show StableHlo.after (hostOps0 (F := Ideal)) (fun b => m (c, b)) (Proc.devRef .tc main_v15) = _
  after_results
  rfl

/-- `b2`, repeated over both halves. -/
theorem bias2_eq : (V m c main_v17 : S1x128.Idx → EReal) = tiled (m ((c : Thread nD τ).loc main_arg6)) := by
  show StableHlo.after (hostOps0 (F := Ideal)) (fun b => m (c, b)) (Proc.devRef .tc main_v17) = _
  after_results
  rfl

/-- The mask of the first half of the lanes. -/
theorem maskA_eq : (V m c main_v20 : S1x128.Idx → EReal) = maskA := by
  show StableHlo.after (hostOps0 (F := Ideal)) (fun b => m (c, b)) (Proc.devRef .tc main_v20) = _
  after_results
  rfl

/-- The mask of the second half. -/
theorem maskB_eq : (V m c main_v22 : S1x128.Idx → EReal) = maskB := by
  show StableHlo.after (hostOps0 (F := Ideal)) (fun b => m (c, b)) (Proc.devRef .tc main_v22) = _
  after_results
  rfl

end Cert.KernelIdeal.EntryLanes

end
-- ==== Proof.KernelValue.lean ====
/-
  From the blocks to the result array.

  The grid has 100 points. Point `t` fetches packed rows `5000·t … 5000·t + 4999` of the two packed edge arrays, the
  whole of each of the six small arrays, and writes back packed rows `5000·t … 5000·t + 4999` of the output. What it
  writes back is those rows of the packed specification (Proof/BlockValue.lean, with each fetched block read where the
  index maps put it). The 100 blocks tile the 500000 packed rows — row `i` lies in the block of point `i / 5000` — so
  after the region the output array IS the packed specification. The host then views the packed array as one edge per
  row again; a reshape followed by the reshape back is the identity, so the result is the specification itself.
-/
import proofs.«159200_j335007449151_2_alg».proof.Proof.Gen.KernelIdeal.Frame
import proofs.«159200_j335007449151_2_alg».proof.Proof.BlockValue
import proofs.«159200_j335007449151_2_alg».proof.Proof.EntryRows
import proofs.«159200_j335007449151_2_alg».proof.Proof.EntryLanes
import Idealize.ShloMosaic.Lib.Pipeline.Value
import Idealize.ShloMosaic.Lib.StableHlo.Run
import Idealize.ShloMosaic.PureOps.Ideal

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.ValueIdx Cert.KernelIdeal.Staged Cert.KernelIdeal.BlockValue Cert.EdgeSpec
open Idealize.ShloMosaic.Pipeline (Dat)

variable (m : (ℓ : Loc nD τ sig) → Buf (Elt Ideal) ℓ) (ρ : Dev nD → PrngReg)

/-- The specification of the arguments as launched. -/
abbrev result (c : Dev nD) : FVec Ideal S1000000x64 .f32 := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The same, two edges to a packed row. -/
abbrev packedResult (c : Dev nD) : FVec Ideal S500000x128 .f32 := Gp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The printed index maps over the grid: the two packed edge arrays and the output move one block of rows per point;
    the six small arrays stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The grid has 100 points. -/
theorem point_lt (t : Fin cfg0.N) : t.val < 100 := Nat.lt_of_lt_of_eq t.isLt N_0

/-- Packed row `5000·t + p`: row `p` of point `t`'s block. -/
def rowOf (t : Fin cfg0.N) (p : Fin 5000) : Fin 500000 := ⟨5000 * t.val + p.val, by have := point_lt t; have := p.isLt; omega⟩

/-- Row `p` of point `t`'s block of the packed relation rows is packed row `5000·t + p`. -/
theorem blk0 (c : Dev nD) (t : Fin cfg0.N) (p : Fin 5000) (k : Fin 128) :
    iblk m c 0 t (ix2 p k) = packed (m ((c : Thread nD τ).loc main_arg1)) (ix2 (rowOf t p) k) := by
  obtain ⟨f00, f01, f10, f11, f20, f21, f30, f31, f40, f41, f50, f51, f60, f61, f70, f71, f80, f81⟩ := idx_facts t
  show V m c main_v23 (((cfg0.win 0).blk t).view.emb (ix2 p k)) = _
  rw [EntryRows.rel_eq]
  refine congrArg (packed _) (funext fun a => Fin.ext ?_)
  match a with
  | ⟨0, _⟩ => show win0_0.index t (0 : Fin 2) * 5000 + 1 * p.val = 5000 * t.val + p.val; rw [f00]; omega
  | ⟨1, _⟩ => show win0_0.index t (1 : Fin 2) * 128 + 1 * k.val = k.val; rw [f01]; omega

/-- The same for the packed weight rows. -/
theorem blk1 (c : Dev nD) (t : Fin cfg0.N) (p : Fin 5000) (k : Fin 128) :
    iblk m c 1 t (ix2 p k) = packed (m ((c : Thread nD τ).loc main_arg2)) (ix2 (rowOf t p) k) := by
  obtain ⟨f00, f01, f10, f11, f20, f21, f30, f31, f40, f41, f50, f51, f60, f61, f70, f71, f80, f81⟩ := idx_facts t
  show V m c main_v24 (((cfg0.win 1).blk t).view.emb (ix2 p k)) = _
  rw [EntryRows.wts_eq]
  refine congrArg (packed _) (funext fun a => Fin.ext ?_)
  match a with
  | ⟨0, _⟩ => show win0_1.index t (0 : Fin 2) * 5000 + 1 * p.val = 5000 * t.val + p.val; rw [f10]; omega
  | ⟨1, _⟩ => show win0_1.index t (1 : Fin 2) * 128 + 1 * k.val = k.val; rw [f11]; omega

/-- Every point's block of the first weight matrix is the whole matrix. -/
theorem blk2 (c : Dev nD) (t : Fin cfg0.N) : iblk m c 2 t = blockDiag (w1low (m ((c : Thread nD τ).loc main_arg3))) := by
  obtain ⟨f00, f01, f10, f11, f20, f21, f30, f31, f40, f41, f50, f51, f60, f61, f70, f71, f80, f81⟩ := idx_facts t
  funext y
  obtain ⟨u, v, rfl⟩ : ∃ (u : Fin 128) (v : Fin 128), y = ix2 u v := ⟨y 0, y 1, eq_ix2 y⟩
  show V m c main_v9 (((cfg0.win 2).blk t).view.emb (ix2 u v)) = _
  rw [EntryRows.w1_eq]
  refine congrArg (blockDiag _) (funext fun a => Fin.ext ?_)
  match a with
  | ⟨0, _⟩ => show win0_2.index t (0 : Fin 2) * 128 + 1 * u.val = u.val; rw [f20]; omega
  | ⟨1, _⟩ => show win0_2.index t (1 : Fin 2) * 128 + 1 * v.val = v.val; rw [f21]; omega

/-- Every point's block of the first bias row is the whole row. -/
theorem blk3 (c : Dev nD) (t : Fin cfg0.N) : iblk m c 3 t = tiled (bias1 (m ((c : Thread nD τ).loc main_arg0)) (m ((c : Thread nD τ).loc main_arg3)) (m ((c : Thread nD τ).loc main_arg4))) := by
  obtain ⟨f00, f01, f10, f11, f20, f21, f30, f31, f40, f41, f50, f51, f60, f61, f70, f71, f80, f81⟩ := idx_facts t
  funext y
  obtain ⟨u, v, rfl⟩ : ∃ (u : Fin 1) (v : Fin 128), y = ix2 u v := ⟨y 0, y 1, eq_ix2 y⟩
  show V m c main_v15 (((cfg0.win 3).blk t).view.emb (ix2 u v)) = _
  rw [EntryLanes.bias1_eq]
  refine congrArg (tiled _) (funext fun a => Fin.ext ?_)
  match a with
  | ⟨0, _⟩ => show win0_3.index t (0 : Fin 2) * 1 + 1 * u.val = u.val; rw [f30]; omega
  | ⟨1, _⟩ => show win0_3.index t (1 : Fin 2) * 128 + 1 * v.val = v.val; rw [f31]; omega

/-- Every point's block of the second weight matrix is the whole matrix. -/
theorem blk4 (c : Dev nD) (t : Fin cfg0.N) : iblk m c 4 t = blockDiag (m ((c : Thread nD τ).loc main_arg5)) := by
  obtain ⟨f00, f01, f10, f11, f20, f21, f30, f31, f40, f41, f50, f51, f60, f61, f70, f71, f80, f81⟩ := idx_facts t
  funext y
  obtain ⟨u, v, rfl⟩ : ∃ (u : Fin 128) (v : Fin 128), y = ix2 u v := ⟨y 0, y 1, eq_ix2 y⟩
  show V m c main_v13 (((cfg0.win 4).blk t).view.emb (ix2 u v)) = _
  rw [EntryRows.w2_eq]
  refine congrArg (blockDiag _) (funext fun a => Fin.ext ?_)
  match a with
  | ⟨0, _⟩ => show win0_4.index t (0 : Fin 2) * 128 + 1 * u.val = u.val; rw [f40]; omega
  | ⟨1, _⟩ => show win0_4.index t (1 : Fin 2) * 128 + 1 * v.val = v.val; rw [f41]; omega

/-- Every point's block of the second bias row is the whole row. -/
theorem blk5 (c : Dev nD) (t : Fin cfg0.N) : iblk m c 5 t = tiled (m ((c : Thread nD τ).loc main_arg6)) := by
  obtain ⟨f00, f01, f10, f11, f20, f21, f30, f31, f40, f41, f50, f51, f60, f61, f70, f71, f80, f81⟩ := idx_facts t
  funext y
  obtain ⟨u, v, rfl⟩ : ∃ (u : Fin 1) (v : Fin 128), y = ix2 u v := ⟨y 0, y 1, eq_ix2 y⟩
  show V m c main_v17 (((cfg0.win 5).blk t).view.emb (ix2 u v)) = _
  rw [EntryLanes.bias2_eq]
  refine congrArg (tiled _) (funext fun a => Fin.ext ?_)
  match a with
  | ⟨0, _⟩ => show win0_5.index t (0 : Fin 2) * 1 + 1 * u.val = u.val; rw [f50]; omega
  | ⟨1, _⟩ => show win0_5.index t (1 : Fin 2) * 128 + 1 * v.val = v.val; rw [f51]; omega

/-- Every point's block of the first mask is the whole mask. -/
theorem blk6 (c : Dev nD) (t : Fin cfg0.N) : iblk m c 6 t = maskA := by
  obtain ⟨f00, f01, f10, f11, f20, f21, f30, f31, f40, f41, f50, f51, f60, f61, f70, f71, f80, f81⟩ := idx_facts t
  funext y
  obtain ⟨u, v, rfl⟩ : ∃ (u : Fin 1) (v : Fin 128), y = ix2 u v := ⟨y 0, y 1, eq_ix2 y⟩
  show V m c main_v20 (((cfg0.win 6).blk t).view.emb (ix2 u v)) = _
  rw [EntryLanes.maskA_eq]
  refine congrArg maskA (funext fun a => Fin.ext ?_)
  match a with
  | ⟨0, _⟩ => show win0_6.index t (0 : Fin 2) * 1 + 1 * u.val = u.val; rw [f60]; omega
  | ⟨1, _⟩ => show win0_6.index t (1 : Fin 2) * 128 + 1 * v.val = v.val; rw [f61]; omega

/-- Every point's block of the second mask is the whole mask. -/
theorem blk7 (c : Dev nD) (t : Fin cfg0.N) : iblk m c 7 t = maskB := by
  obtain ⟨f00, f01, f10, f11, f20, f21, f30, f31, f40, f41, f50, f51, f60, f61, f70, f71, f80, f81⟩ := idx_facts t
  funext y
  obtain ⟨u, v, rfl⟩ : ∃ (u : Fin 1) (v : Fin 128), y = ix2 u v := ⟨y 0, y 1, eq_ix2 y⟩
  show V m c main_v22 (((cfg0.win 7).blk t).view.emb (ix2 u v)) = _
  rw [EntryLanes.maskB_eq]
  refine congrArg maskB (funext fun a => Fin.ext ?_)
  match a with
  | ⟨0, _⟩ => show win0_7.index t (0 : Fin 2) * 1 + 1 * u.val = u.val; rw [f70]; omega
  | ⟨1, _⟩ => show win0_7.index t (1 : Fin 2) * 128 + 1 * v.val = v.val; rw [f71]; omega

/-- What point `t` writes back is block `t` of the packed specification. -/
theorem flushed_eq (c : Dev nD) (t : Fin cfg0.N) :
    (dats m 0 c).flushed 8 t = ((cfg0.win 8).blk t).view.read (Elt Ideal) (packedResult m c) := by
  show (cfg0.win 8).cut (grid0.coords t) ((dats m 0 c).after 8 t) = _
  rw [after0_8]
  obtain ⟨f00, f01, f10, f11, f20, f21, f30, f31, f40, f41, f50, f51, f60, f61, f70, f71, f80, f81⟩ := idx_facts t
  funext y
  obtain ⟨p, l, rfl⟩ : ∃ (p : Fin 5000) (l : Fin 128), y = ix2 p l := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p l) = packedResult m c (((cfg0.win 8).blk t).view.emb (ix2 p l))
  refine (body_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t) (iblk m c 7 t)
    (rowOf t p) p (fun k => blk0 m c t p k) (fun k => blk1 m c t p k) (blk2 m c t) (blk3 m c t) (blk4 m c t) (blk5 m c t) (blk6 m c t) (blk7 m c t) l).trans ?_
  refine congrArg (packedResult m c) (funext fun a => Fin.ext ?_)
  match a with
  | ⟨0, _⟩ => show 5000 * t.val + p.val = win0_8.index t (0 : Fin 2) * 5000 + 1 * p.val; rw [f80]; omega
  | ⟨1, _⟩ => show l.val = win0_8.index t (1 : Fin 2) * 128 + 1 * l.val; rw [f81]; omega

/-- An index of the output array is in point `t`'s block iff each coordinate is in the block's range on its axis. -/
theorem mem_blk (t : Fin cfg0.N) (i : S500000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v25).slice (win0_8.rect t)).set ↔ _
  rw [View.set_slice_whole, Rect.mem_set_unit]
  exact Iff.rfl

/-- Every packed row lies in the block of the point `row / 5000`. -/
theorem cover (i : S500000x128.Idx) : ∃ t : Fin cfg0.N, (cfg0.win 8).flush t = true ∧ i ∈ ((cfg0.win 8).blk t).view.set := by
  have hi0 : (i 0).val < 500000 := (i 0).isLt
  have hi1 : (i 1).val < 128 := (i 1).isLt
  have hlt : (i 0).val / 5000 < cfg0.N := Nat.lt_of_lt_of_eq (by omega : (i 0).val / 5000 < 100) N_0.symm
  refine ⟨⟨(i 0).val / 5000, hlt⟩, flush0_8 _, ?_⟩
  rw [mem_blk]
  obtain ⟨f00, f01, f10, f11, f20, f21, f30, f31, f40, f41, f50, f51, f60, f61, f70, f71, f80, f81⟩ := idx_facts ⟨(i 0).val / 5000, hlt⟩
  have f80' : win0_8.index ⟨(i 0).val / 5000, hlt⟩ (0 : Fin 2) = (i 0).val / 5000 := f80
  intro a
  match a with
  | ⟨0, _⟩ =>
    show win0_8.index ⟨(i 0).val / 5000, hlt⟩ (0 : Fin 2) * 5000 ≤ (i 0).val ∧ (i 0).val < win0_8.index ⟨(i 0).val / 5000, hlt⟩ (0 : Fin 2) * 5000 + 5000
    rw [f80']; omega
  | ⟨1, _⟩ =>
    show win0_8.index ⟨(i 0).val / 5000, hlt⟩ (1 : Fin 2) * 128 ≤ (i 1).val ∧ (i 1).val < win0_8.index ⟨(i 0).val / 5000, hlt⟩ (1 : Fin 2) * 128 + 128
    rw [f81]; omega

/-- The output array after the region is the packed specification. -/
theorem final (c : Dev nD) : (dats m 0 c).arrAt 8 cfg0.N = packedResult m c :=
  (dats m 0 c).arrAt_eq_of_cover 8 (packedResult m c) (fun t _ => flushed_eq m c t) cover

/-- The host's last line views the packed array as one edge per row: the specification. -/
theorem tail_eq (c : Dev nD) :
    (Pipeline.afterTail₀ cfgs (dats m) 0 (V0 m) [hostOps1] c main_v26 : S1000000x64.Idx → EReal) = result m c := by
  unfold Pipeline.afterTail₀
  show StableHlo.after (hostOps1 (F := Ideal)) _ (Proc.devRef .tc main_v26) = _
  after_results
  have e : Pipeline.withArrays (cfgs 0).spec c (V0 m c) (fun w => (dats m 0 c).arrAt w (cfgs 0).N) (Proc.devRef .tc main_v25)
      = packedResult m c :=
    (Pipeline.withArrays_arr spec0 launch0.win.arr_inj c _ _ 8).trans (final m c)
  show shapeCast S1000000x64 (Pipeline.withArrays (cfgs 0).spec c (V0 m c) (fun w => (dats m 0 c).arrAt w (cfgs 0).N) (Proc.devRef .tc main_v25))
      shapeCasts_S500000x128_S1000000x64 = _
  rw [e]
  exact shapeCast_shapeCast _ _ _

/-- Every weakly fair execution of the kernel's program terminates with the result array at the specification of the
    arguments as launched, and the arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelValue

end
-- ==== Proof.RefIsSpec.lean ====
/-
  The reference computes the specification.

  Read one operation at a time, the reference's result at edge `e` and column `j` is the specification's `G` there. The
  one step that is more than reading is the first layer: the reference multiplies the 192-long row "latent, then relation
  row" by `W1` in one sum over 192 terms, and the specification writes that sum as its first 128 terms (where the row
  holds the latent) plus its last 64 (where it holds the relation row). Addition of extended reals is commutative and
  associative, so the order in which the bias joins the two partial sums does not matter.
-/
import proofs.«159200_j335007449151_2_alg».proof.Proof.Gen.ReferenceIdeal.Read
import proofs.«159200_j335007449151_2_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Read Idealize.ShloMosaic Idealize.ShloMosaic.ValueIdx Cert.EdgeSpec

variable (x0 : (⟨S128, .f32⟩ : BufTy).Contents (Elt Ideal)) (x1 x2 : (⟨S1000000x64, .f32⟩ : BufTy).Contents (Elt Ideal))
  (x3 : (⟨S192x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

/-- The joined row holds the latent in its first 128 places. -/
theorem v1_top (e : Fin 1000000) (k : Fin 128) : val_main_v1 (F := Ideal) x0 x1 (ix2 e (top k)) = x0 (ix1 k) := by
  unfold val_main_v1
  refine (concatenate_pair_apply_left (t := S1000000x192) (s₁ := S1000000x128) (s₂ := S1000000x64) (1 : Fin 2) _ _ _ (ix2 e (top k)) rfl
    (ix2 e k : S1000000x128.Idx) (fun b => by match b with | ⟨0, _⟩ => rfl | ⟨1, _⟩ => rfl)).trans ?_
  rw [val_main_v0_apply]
  exact congrArg x0 (funext fun a => by match a with | ⟨0, _⟩ => rfl)

/-- And the edge's relation row in its last 64. -/
theorem v1_low (e : Fin 1000000) (k : Fin 64) : val_main_v1 (F := Ideal) x0 x1 (ix2 e (low k)) = x1 (ix2 e k) := by
  unfold val_main_v1
  exact concatenate_pair_apply_right (t := S1000000x192) (s₁ := S1000000x128) (s₂ := S1000000x64) (1 : Fin 2) _ _ _ (ix2 e (low k)) rfl rfl
    (ix2 e k : S1000000x64.Idx) (fun b hb => by
      match b with
      | ⟨0, _⟩ => rfl
      | ⟨1, _⟩ => exact absurd (Fin.ext rfl) hb)
    (by show k.val + 128 = 128 + k.val; omega)

/-- The first layer's product: the 192 terms as the latent's 128 and the edge's 64. -/
theorem v2_apply (e : Fin 1000000) (j : Fin 64) :
    val_main_v2 (F := Ideal) x0 x1 x3 (ix2 e j) = (∑ k : Fin 128, x0 (ix1 k) * x3 (ix2 (top k) j)) + edgeShare x1 x3 e j := by
  rw [val_main_v2_apply]
  have hl : ∀ k : Fin 192, lidx_main_v2 (ix2 e j) k = ix2 e k := fun k => funext fun a => by
    match a with | ⟨0, _⟩ => rfl | ⟨1, _⟩ => rfl
  have hr : ∀ k : Fin 192, ridx_main_v2 (ix2 e j) k = ix2 k j := fun k => funext fun a => by
    match a with | ⟨0, _⟩ => rfl | ⟨1, _⟩ => rfl
  simp only [hl, hr]
  refine (Fin.sum_univ_add (a := 128) (b := 64) (fun k : Fin (128 + 64) => val_main_v1 (F := Ideal) x0 x1 (ix2 e k) * x3 (ix2 k j))).trans ?_
  unfold edgeShare
  refine congrArg₂ (· + ·) (Finset.sum_congr rfl fun k _ => ?_) (Finset.sum_congr rfl fun k _ => ?_)
  · rw [show (Fin.castAdd 64 k : Fin (128 + 64)) = top k from Fin.ext rfl, v1_top]
  · rw [show (Fin.natAdd 128 k : Fin (128 + 64)) = low k from Fin.ext rfl, v1_low]

/-- The hidden layer. -/
theorem v6_apply (e : Fin 1000000) (j : Fin 64) :
    val_main_v6 (F := Ideal) x0 x1 x3 x4 (ix2 e j) = hid x0 x1 x3 x4 e j := by
  rw [val_main_v6_apply, val_main_v5_apply, v2_apply, val_main_v4_apply, val_main_v3_apply, val_main_call0_v0_apply, val_main_call0_cst_apply]
  have e4 : idx_main_v3 (idx_main_v4 (ix2 e j)) = ix1 j := funext fun a => by match a with | ⟨0, _⟩ => rfl
  rw [e4]
  unfold hid latentBias
  show max (((∑ k : Fin 128, x0 (ix1 k) * x3 (ix2 (top k) j)) + edgeShare x1 x3 e j) + x4 (ix1 j)) (Ideal.ofBits .f32 0x00000000#32) = _
  rw [Ideal.ofBits_zero_f32, add_comm (∑ k : Fin 128, x0 (ix1 k) * x3 (ix2 (top k) j)) (edgeShare x1 x3 e j), add_assoc]

/-- The message. -/
theorem v11_apply (e : Fin 1000000) (j : Fin 64) :
    val_main_v11 (F := Ideal) x0 x1 x2 x3 x4 x5 x6 (ix2 e j) = msg x0 x1 x2 x3 x4 x5 x6 e j := by
  rw [val_main_v11_apply, val_main_v10_apply, val_main_v7_apply, val_main_v9_apply, val_main_v8_apply]
  have hl : ∀ k : Fin 64, lidx_main_v7 (ix2 e j) k = ix2 e k := fun k => funext fun a => by
    match a with | ⟨0, _⟩ => rfl | ⟨1, _⟩ => rfl
  have hr : ∀ k : Fin 64, ridx_main_v7 (ix2 e j) k = ix2 k j := fun k => funext fun a => by
    match a with | ⟨0, _⟩ => rfl | ⟨1, _⟩ => rfl
  have e9 : idx_main_v8 (idx_main_v9 (ix2 e j)) = ix1 j := funext fun a => by match a with | ⟨0, _⟩ => rfl
  simp only [hl, hr, e9, v6_apply]
  rfl

/-- The squared norm of the message row. -/
theorem sumsq_apply (e : Fin 1000000) :
    val_main_call1_v1 (F := Ideal) x0 x1 x2 x3 x4 x5 x6 (ix1 e) = sumsq x0 x1 x2 x3 x4 x5 x6 e := by
  rw [val_main_call1_v1_apply, val_main_call1_cst_apply]
  have hi : ∀ k : Fin 64, idx_main_call1_v1 (ix1 e) k = ix2 e k := fun k => funext fun a => by
    match a with | ⟨0, _⟩ => rfl | ⟨1, _⟩ => rfl
  simp only [hi, val_main_call1_v0_apply, v11_apply]
  show Ideal.ofBits .f32 0x00000000#32 + _ = _
  rw [Ideal.ofBits_zero_f32, zero_add]
  rfl

/-- The scale of an edge's row. -/
theorem v19_apply (e : Fin 1000000) :
    val_main_v19 (F := Ideal) x0 x1 x2 x3 x4 x5 x6 (ix2 e (0 : Fin 1)) = Cert.LibClampLaw.scaleOfNorm (sumsq x0 x1 x2 x3 x4 x5 x6 e) := by
  have e12 : val_main_v12 (F := Ideal) x0 x1 x2 x3 x4 x5 x6 (ix2 e (0 : Fin 1)) = Ideal.sqrt (sumsq x0 x1 x2 x3 x4 x5 x6 e) := by
    rw [val_main_v12_apply, val_main_call1_v2_apply]
    have e2 : idx_main_call1_v2 (ix2 e (0 : Fin 1)) = ix1 e := funext fun a => by match a with | ⟨0, _⟩ => rfl
    rw [e2, sumsq_apply]
    rfl
  rw [val_main_v19_apply, val_main_v14_apply, val_main_v18_apply, val_main_v16_apply, e12]
  show Scalar.select (Ideal.cmp .ogt (Ideal.sqrt (sumsq x0 x1 x2 x3 x4 x5 x6 e)) (Ideal.ofBits .f32 0x3F800000#32))
      (Ideal.div (Ideal.ofBits .f32 0x3F800000#32) (max (Ideal.sqrt (sumsq x0 x1 x2 x3 x4 x5 x6 e)) (Ideal.ofBits .f32 0x3F800000#32)))
      (Ideal.ofBits .f32 0x3F800000#32) = _
  rw [Cert.LibClampLaw.ofBits_one]
  rfl

/-- The reference's result is the specification, entry by entry. -/
theorem result_eq : val_main_v21 (F := Ideal) x0 x1 x2 x3 x4 x5 x6 = G x0 x1 x2 x3 x4 x5 x6 := by
  funext i
  obtain ⟨e, j, rfl⟩ : ∃ (e : Fin 1000000) (j : Fin 64), i = ix2 e j := ⟨i 0, i 1, eq_ix2 i⟩
  rw [val_main_v21_apply, val_main_v20_apply, v11_apply]
  have e20 : idx_main_v20 (ix2 e j) = ix2 e (0 : Fin 1) := funext fun a => by
    match a with | ⟨0, _⟩ => rfl | ⟨1, _⟩ => rfl
  rw [e20, v19_apply]
  rfl

end Cert.ReferenceIdeal.RefSpec

end
-- ==== Proof.lean ====
/-
  Two programs compute one function of their arguments on the extended reals.

  A million edges each carry a relation row and a weight row of length 64; one node latent of length 128 is shared by
  all. Both programs push "latent, then relation row" through a two-layer perceptron (192 → 64 → 64, rectified in
  between), weight the output entry by entry, and clamp each resulting row to the unit ball.

  The reference does this edge by edge as written. The kernel packs two consecutive edges into one row of 128 lanes,
  multiplies by block-diagonal copies of the weight matrices so that each half of the lanes meets only its own edge's
  numbers, adds the latent's share of the first layer — the same for every edge — as part of a precomputed bias row,
  recovers each edge's squared norm with a 0/1 mask of its half of the lanes, and takes the clamping scale from the
  squared norm by a reciprocal square root where the reference divides by the larger of the norm and one.

  On the extended reals these differences vanish: a sum of 192 terms is its first 128 plus its last 64 in any
  grouping with the bias (addition is commutative and associative); a product with a block-diagonal matrix, and a sum
  against a 0/1 mask, lose exactly the terms multiplied by zero (`x · 0 = 0` for every extended real); and the two
  spellings of the clamping scale are one function (Proof/LibClampLaw.lean). None of these laws needs the inputs to be
  finite, so the precondition is never opened. Proof/Spec.lean states the common function; Proof/RefIsSpec.lean shows
  the reference computes it; Proof/Payload.lean, Staged.lean, BlockValue.lean, EntryRows.lean, EntryLanes.lean and
  KernelValue.lean show the kernel does, from the body's arithmetic on one block up to the whole result array. The
  idealized kernel is the kernel's own text read at the exact values (no operation was rewritten), and the three
  programs' runs terminate with their arguments unchanged by the generated frame certificates and the reference's run.
-/
import proofs.«159200_j335007449151_2_alg».proof.Defs
import proofs.«159200_j335007449151_2_alg».proof.Proof.Gen.Kernel
import proofs.«159200_j335007449151_2_alg».proof.Proof.Gen.Kernel.Skeleton
import proofs.«159200_j335007449151_2_alg».proof.Proof.Gen.Kernel.Launch
import proofs.«159200_j335007449151_2_alg».proof.Proof.Gen.Kernel.Points
import proofs.«159200_j335007449151_2_alg».proof.Proof.Gen.Kernel.Frame
import proofs.«159200_j335007449151_2_alg».proof.Proof.Gen.KernelIdeal
import proofs.«159200_j335007449151_2_alg».proof.Proof.Gen.KernelIdeal.Skeleton
import proofs.«159200_j335007449151_2_alg».proof.Proof.Gen.KernelIdeal.Launch
import proofs.«159200_j335007449151_2_alg».proof.Proof.Gen.KernelIdeal.Points
import proofs.«159200_j335007449151_2_alg».proof.Proof.Gen.KernelIdeal.Frame
import proofs.«159200_j335007449151_2_alg».proof.Proof.Gen.ReferenceIdeal
import proofs.«159200_j335007449151_2_alg».proof.Proof.Gen.ReferenceIdeal.Run
import proofs.«159200_j335007449151_2_alg».proof.Proof.Gen.ReferenceIdeal.Read
import proofs.«159200_j335007449151_2_alg».proof.Proof.Gen.Pre_finite_inputs
import proofs.«159200_j335007449151_2_alg».proof.Proof.KernelValue
import proofs.«159200_j335007449151_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the exact values: nothing to restate. -/
theorem preserves : Cert.preserves_Kernel_KernelIdeal := trivial

/-- From memories agreeing on the arguments, both programs end with the specification of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.ReferenceIdeal.RefSpec.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
